-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1000 : Shape := ⟨2, ![16384, 1000]⟩
abbrev S1000x64 : Shape := ⟨2, ![1000, 64]⟩
abbrev S_ : Shape := ⟨0, ![]⟩

class Facts : Prop where
  bcast_S_S1000x64 : S_.BroadcastsInDim S1000x64 (![] : Fin 0 → Fin S1000x64.rank)
  reducesTo_S1000x64_S_d0_1 : S1000x64.ReducesTo [0, 1] S_
  h_S_ : 0 < S_.numel

variable [Facts]

def fn {F : FTy → Type} [FloatOps F] (main_arg0 : IVec S16384x1000 32) (main_arg1 : FVec F S1000x64 .f32) : IVec S_ 1 :=
  let main_v0 : FVec F S1000x64 .f32 := Host.absf main_arg1
  let main_cst : FVec F S_ .f32 := constant S_ .f32 0x7F800000#32
  let main_v1 : FVec F S1000x64 .f32 := broadcastInDim S1000x64 ![] bcast_S_S1000x64 main_cst
  let main_v2 : IVec S1000x64 1 := cmpf .olt main_v0 main_v1
  let main_c : IVec S_ 1 := constantI S_ 1 1#1
  let main_v3 : IVec S_ 1 := (fun x v => Host.reduce IntOp.andi x v reducesTo_S1000x64_S_d0_1 h_S_) main_v2 main_c
  main_v3
-- ==== Kernel.lean ====
abbrev S16384x1000 : Shape := ⟨2, ![16384, 1000]⟩
abbrev S1000x64 : Shape := ⟨2, ![1000, 64]⟩
abbrev S16384x64 : Shape := ⟨2, ![16384, 64]⟩
abbrev S256x1000 : Shape := ⟨2, ![256, 1000]⟩
abbrev S1024x64 : Shape := ⟨2, ![1024, 64]⟩
abbrev S256x64 : Shape := ⟨2, ![256, 64]⟩

abbrev nBuf : Space → Nat
  | .hbm => 3
  | .vmem => 11
  | .smem => 0
  | _ => 0

abbrev bufTy : (tb : Table) → Fin (tcTables nBuf tb) → BufTy
  | .hbm, ⟨0, _⟩ => ⟨S16384x1000, .i32⟩
  | .hbm, ⟨1, _⟩ => ⟨S1000x64, .f32⟩
  | .hbm, ⟨2, _⟩ => ⟨S16384x64, .f32⟩
  | .local _ .vmem, ⟨0, _⟩ => ⟨S256x1000, .i32⟩
  | .local _ .vmem, ⟨1, _⟩ => ⟨S256x1000, .i32⟩
  | .local _ .vmem, ⟨2, _⟩ => ⟨S256x1000, .i32⟩
  | .local _ .vmem, ⟨3, _⟩ => ⟨S256x1000, .i32⟩
  | .local _ .vmem, ⟨4, _⟩ => ⟨S256x1000, .i32⟩
  | .local _ .vmem, ⟨5, _⟩ => ⟨S256x1000, .i32⟩
  | .local _ .vmem, ⟨6, _⟩ => ⟨S256x1000, .i32⟩
  | .local _ .vmem, ⟨7, _⟩ => ⟨S256x1000, .i32⟩
  | .local _ .vmem, ⟨8, _⟩ => ⟨S1000x64, .f32⟩
  | .local _ .vmem, ⟨9, _⟩ => ⟨S1024x64, .f32⟩
  | .local _ .vmem, ⟨10, _⟩ => ⟨S1024x64, .f32⟩
  | _, _ => ⟨S16384x1000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c4_i32 : BitVec 32 := 4#32
  let v0 : BitVec 32 := Scalar.muli arg0 c4_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.muli arg0 c4_i32
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.muli arg0 c4_i32
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1000 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1000 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1000 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1000x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S1000x64_S1000x64_0_0 : ∀ a, (![0, 0] : Fin 2 → Nat) a + S1000x64.size a ≤ S1000x64.size a
  h_S1000x64 : 0 < S1000x64.numel
  inb_S256x1000_S256x1000_0_0 : ∀ a, (![0, 0] : Fin 2 → Nat) a + S256x1000.size a ≤ S256x1000.size a
  h_S256x1000 : 0 < S256x1000.numel
  natLt_1_32 : 1 < 32
  inb_S1024x64_S256x64_0_0 : ∀ a, (![0, 0] : Fin 2 → Nat) a + S256x64.size a ≤ S1024x64.size a
  h_S256x64 : 0 < S256x64.numel
  inb_S1024x64_S256x64_256_0 : ∀ a, (![256, 0] : Fin 2 → Nat) a + S256x64.size a ≤ S1024x64.size a
  inb_S1024x64_S256x64_512_0 : ∀ a, (![512, 0] : Fin 2 → Nat) a + S256x64.size a ≤ S1024x64.size a
  inb_S1024x64_S256x64_768_0 : ∀ a, (![768, 0] : Fin 2 → Nat) a + S256x64.size a ≤ S1024x64.size a
  dot_S256x1000_S1000x64_S256x64_1_0_0_1_n_n_wf : DotDims.WF S256x1000 S1000x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1000.size a ≤ S16384x1000.size a
  hwx0_0 : ∀ i : grid0.Coords, EltTy.bits .i32 = 32 ∨ (Rect.block (s := S16384x1000) S256x1000.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1000.size a ≤ S16384x1000.size a
  hwx0_1 : ∀ i : grid0.Coords, EltTy.bits .i32 = 32 ∨ (Rect.block (s := S16384x1000) S256x1000.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1000.size a ≤ S16384x1000.size a
  hwx0_2 : ∀ i : grid0.Coords, EltTy.bits .i32 = 32 ∨ (Rect.block (s := S16384x1000) S256x1000.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1000.size a ≤ S16384x1000.size a
  hwx0_3 : ∀ i : grid0.Coords, EltTy.bits .i32 = 32 ∨ (Rect.block (s := S16384x1000) S256x1000.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1000x64.size a ≤ S1000x64.size a
  hwx0_4 : ∀ i : grid0.Coords, EltTy.bits .f32 = 32 ∨ (Rect.block (s := S1000x64) S1000x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x64.size a ≤ S16384x64.size a
  hwx0_5 : ∀ i : grid0.Coords, EltTy.bits .f32 = 32 ∨ (Rect.block (s := S16384x64) S1024x64.size (cc0_transform_5 i) (hinb0_5 i)).WholeWords (EltTy.packing .f32)

variable [Facts₀]

def dot_S256x1000_S1000x64_S256x64_1_0_0_1_n_n : DotDims S256x1000 S1000x64 S256x64 where
  lhsContracting := [1]
  rhsContracting := [0]
  lhsNonContracting := [0]
  rhsNonContracting := [1]
  lhsBatch := []
  rhsBatch := []
  wf := dot_S256x1000_S1000x64_S256x64_1_0_0_1_n_n_wf

abbrev win0_0 : Pipeline.Window sig grid0 :=
  Pipeline.Window.ofSpec (Memref.whole main_arg0) S256x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x1000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S256x1000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S256x1000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S1000x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1024x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x1000 : Shape := ⟨2, ![16384, 1000]⟩
abbrev S1000x64 : Shape := ⟨2, ![1000, 64]⟩
abbrev S_ : Shape := ⟨0, ![]⟩
abbrev S16384x64 : Shape := ⟨2, ![16384, 64]⟩

abbrev nBuf : Space → Nat
  | .hbm => 7
  | .vmem => 0
  | .smem => 0
  | _ => 0

abbrev bufTy : (tb : Table) → Fin (tcTables nBuf tb) → BufTy
  | .hbm, ⟨0, _⟩ => ⟨S16384x1000, .i32⟩
  | .hbm, ⟨1, _⟩ => ⟨S1000x64, .f32⟩
  | .hbm, ⟨2, _⟩ => ⟨S_, .i32⟩
  | .hbm, ⟨3, _⟩ => ⟨S16384x1000, .i32⟩
  | .hbm, ⟨4, _⟩ => ⟨S16384x1000, .i1⟩
  | .hbm, ⟨5, _⟩ => ⟨S16384x1000, .f32⟩
  | .hbm, ⟨6, _⟩ => ⟨S16384x64, .f32⟩
  | _, _ => ⟨S16384x1000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S_S16384x1000 : S_.BroadcastsInDim S16384x1000 (![] : Fin 0 → Fin S16384x1000.rank)
  dot_S16384x1000_S1000x64_S16384x64_1_0_0_1_n_n_wf : DotDims.WF S16384x1000 S1000x64 S16384x64 [1] [0] [0] [1] [] []

variable [Facts₀]

def dot_S16384x1000_S1000x64_S16384x64_1_0_0_1_n_n : DotDims S16384x1000 S1000x64 S16384x64 where
  lhsContracting := [1]
  rhsContracting := [0]
  lhsNonContracting := [0]
  rhsNonContracting := [1]
  lhsBatch := []
  rhsBatch := []
  wf := dot_S16384x1000_S1000x64_S16384x64_1_0_0_1_n_n_wf

class Facts : Prop extends Facts₀ where

variable [Facts]
-- ==== Proof.LibSharedFrame.lean ====
/-
  A pipelined kernel that is handed ONE array through several input windows.

  The library's frame run asks that the windows' arrays be pairwise distinct buffers, each then held at the
  full share. When one array is read through several windows the buffer behind it is still held whole at
  launch, and the certificate says how that one full share is dealt among the windows that read it
  (`hsplit`). Nothing else changes: a body that uses no semaphore, no scratch and no generator register
  keeps as its invariant the scoped buffers that are no staging buffer, and every unscoped buffer that is
  no window's array bypasses the region and is read back as the region found it.
-/
import Idealize.ShloMosaic.Lib.Pipeline.Frame

noncomputable section

namespace Idealize.ShloMosaic

open Idealize.SL
open Idealize.SL.BI (sProp bigSep)
open scoped Idealize.SL.BI
open Idealize.SL.BI.BIBase Idealize.SL.BI.Laws Idealize.SL.Sem Idealize.SL.ProofMode
open Idealize.SL.RA
open TcCoe

set_option Elab.async false

section Quarters

variable {nD : Nat} {τ : Topo} {sig : RefSig} {Ix : Type} [DecidableEq Ix] {Val : EltTy → Type} {Name : Type} [DecidableEq Name]
variable {U : Type} [URA U] {Lvl : Type}

/-- A share of some elements of a buffer is the four quarter shares of them, each at the same contents: what
    deals one array among four readers. -/
theorem pointsTo_quarters {ℓ : Loc nD τ sig} (I : Finset (Idx ℓ)) (q : PosShare TreeShare) (f : Buf Val ℓ) :
    (ℓ ↦[I]{q} f : sProp (MT nD τ sig Ix Val Name U Lvl))
      ⊢ iprop((ℓ ↦[I]{q.left.left} f) ∗ (ℓ ↦[I]{q.left.right} f) ∗ (ℓ ↦[I]{q.right.left} f) ∗ (ℓ ↦[I]{q.right.right} f)) := by
  refine (pointsTo_share (PosShare.mem_left_op_right q)).1.trans ?_
  refine (sep_mono (pointsTo_share (PosShare.mem_left_op_right q.left)).1 (pointsTo_share (PosShare.mem_left_op_right q.right)).1).trans ?_
  iintro ⟨⟨Ha, Hb⟩, Hc, Hd⟩
  isplitl [Ha]; · iexact Ha
  isplitl [Hb]; · iexact Hb
  isplitl [Hc]; · iexact Hc
  iexact Hd

end Quarters

namespace Pipeline

open Idealize.ShloMosaic.Rounds

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- The frame run of a one-region program whose input windows may share an array. The proof data's invariant
    is the scoped rest at every point (`hΦ`); the buffers behind the arrays, whole at the region-entry
    contents `V`, make the proof data's arrays at their shares (`hsplit`). Every final state has each window's
    array at what the write-backs leave (`Dat.arrAt … N`) and every other unscoped buffer at `V`. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hΦ : ∀ c t, (dats p c).Φ t = scopedRest (Ix := Unit) (Name := ℕ) (U := UR sig nD τ) (Lvl := ℕ) (Val := Val) (cfgs p).spec c) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj))
    (hu₀ := (show (ownU _ : sProp 𝕄) ⊢ BI.own (emb₁ (initOf (cells cfgs hinj) (launchToks cfgs hinj))) from .rfl))
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro HU
      isplitr; · iempintro
      iexact HU)
    (hin := fun c => by
      rw [hΦ]
      iintro ⟨-, Hr⟩; iexact Hr)
    (hout := fun c => by
      rw [hΦ]
      iintro Hr
      isplitr; · iempintro
      iexact Hr)
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Pipeline

end Idealize.ShloMosaic

end
-- ==== Proof.KernelFrame.lean ====
/-
  The frame of the program `Kernel`: it runs to the end, faults nowhere, and leaves its argument arrays
  unchanged — with each window's array after the run named, for a claim about the result to read.

  The region has sixteen grid points. At point t the body is handed four consecutive 256-row blocks of the
  index array (rows 1024·t + 256·k, k = 0..3, through four windows on that ONE array), the whole table, and
  a 1024-row output block. It turns each index block into a 0/1 mask, multiplies the mask by the table, and
  stores the four 256×64 products into the four row-quarters of the output block, which therefore ends
  covered. Nothing is carried from point to point.

  The index array is read through four windows, so its buffer's full share is dealt among them in quarters;
  the table and the result are each one window's, held whole.
-/
import proofs.«180119_g78932908965942_cont_9to1_m_659_3_alg».proof.Proof.Gen.Kernel.Launch
import proofs.«180119_g78932908965942_cont_9to1_m_659_3_alg».proof.Proof.Gen.Kernel.Skeleton
import proofs.«180119_g78932908965942_cont_9to1_m_659_3_alg».proof.Proof.Gen.Kernel.Points
import proofs.«180119_g78932908965942_cont_9to1_m_659_3_alg».proof.Proof.LibSharedFrame
import Idealize.ShloMosaic.Lib.Pipeline.FrameBody
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its region -/

/-- A core's buffers when the region is entered: as launched (the program is the region alone). -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

/-- The whole table, the whole of an index block, and the four row-quarters of the output block. -/
abbrev rTab : Rect S1000x64 := Rect.unit (s := S1000x64) ![0, 0] S1000x64.size inb_S1000x64_S1000x64_0_0
abbrev rIdx : Rect S256x1000 := Rect.unit (s := S256x1000) ![0, 0] S256x1000.size inb_S256x1000_S256x1000_0_0
abbrev rQ0 : Rect S1024x64 := Rect.unit (s := S1024x64) ![0, 0] S256x64.size inb_S1024x64_S256x64_0_0
abbrev rQ1 : Rect S1024x64 := Rect.unit (s := S1024x64) ![256, 0] S256x64.size inb_S1024x64_S256x64_256_0
abbrev rQ2 : Rect S1024x64 := Rect.unit (s := S1024x64) ![512, 0] S256x64.size inb_S1024x64_S256x64_512_0
abbrev rQ3 : Rect S1024x64 := Rect.unit (s := S1024x64) ![768, 0] S256x64.size inb_S1024x64_S256x64_768_0

/-! ## What the body leaves in the output block -/

/-- The output block after the body, from the four index blocks and the table: its four stores, the last
    first; quarter k is the masked product of index block k with the table. -/
def outBlock (x0 x1 x2 x3 : Vec F S256x1000 .i32) (tab : Vec F S1000x64 .f32) : Vec F S1024x64 .f32 :=
  View.canon [⟨rQ3, k0_pay4 (View.ld tab rTab) (View.ld x3 rIdx)⟩, ⟨rQ2, k0_pay3 (View.ld tab rTab) (View.ld x2 rIdx)⟩,
    ⟨rQ1, k0_pay2 (View.ld tab rTab) (View.ld x1 rIdx)⟩, ⟨rQ0, k0_pay1 (View.ld tab rTab) (View.ld x0 rIdx)⟩]

/-- The four quarters tile the block, so they cover it. -/
theorem quarters_cover (p3 p2 p1 p0 : Vec F S256x64 .f32) (y : S1024x64.Idx) :
    ∃ pc ∈ ([⟨rQ3, p3⟩, ⟨rQ2, p2⟩, ⟨rQ1, p1⟩, ⟨rQ0, p0⟩] : List (View.Piece (Elt F) S1024x64 .f32)), y ∈ pc.1.set :=
  View.cover_of_tiled [⟨rQ3, p3⟩, ⟨rQ2, p2⟩, ⟨rQ1, p1⟩, ⟨rQ0, p0⟩] S256x64.size (by rfl) y

/-! ## The body's triple -/

set_option maxHeartbeats 1000000 in
/-- The body on whole staging memrefs — the four index blocks and the table at contents it reads, the output at
    anything — runs to the continuation holding the inputs as they were and the output at `outBlock` of them. -/
theorem sound_kernel (c : Dev nD) (E : Set ℕ) (i : grid0.Coords)
    (a1 : Memref sig .tc .vmem S256x1000 .i32) (h1 : a1.IsWhole) (a2 : Memref sig .tc .vmem S256x1000 .i32) (h2 : a2.IsWhole)
    (a3 : Memref sig .tc .vmem S256x1000 .i32) (h3 : a3.IsWhole) (a4 : Memref sig .tc .vmem S256x1000 .i32) (h4 : a4.IsWhole)
    (a5 : Memref sig .tc .vmem S1000x64 .f32) (h5 : a5.IsWhole) (a6 : Memref sig .tc .vmem S1024x64 .f32) (h6 : a6.IsWhole)
    (x0 x1 x2 x3 : Vec F S256x1000 .i32) (tab : Vec F S1000x64 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare tab ∗ (∃ d, owns (c : Thread nD τ) a6 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare tab
            ∗ owns (c : Thread nD τ) a6 fullShare (outBlock x0 x1 x2 x3 tab)) -∗ K ⟨⟩))
      ⊢ wp frame (wpE (defs₀ (F := F)) Variants.none c none) E (cc0__embed_block i a1 h1 a2 h2 a3 h3 a4 h4 a5 h5 a6 h6) K := by
  simp only [cc0__embed_block_eq_skeleton]; unfold cc0__embed_block_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (quarters_cover _ _ _ _)

end Cert.Kernel.Frame

end
-- ==== Proof.KernelRun.lean ====
/-
  The run of the program `Kernel` from its body's triple: the proof data of its one pipeline, the body
  obligation at every grid point, how the index array's full share is dealt in quarters among the four windows
  that read it, and the frame.
-/
import proofs.«180119_g78932908965942_cont_9to1_m_659_3_alg».proof.Proof.KernelFrame

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The proof data of the pipeline on core `c`: the arrays as the region finds them; after the body at point `t`
    each input's buffer still at its block and the output's at `outBlock` of the input blocks; the invariant the
    scoped buffers that are no staging buffer (the body touches none); nothing owed; the index array's four
    windows at the four quarters of the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.scopedRest (Ix := Unit) (Name := ℕ) (U := UR sig nD τ) (Lvl := ℕ) (Val := Elt F) spec0 c
  q w := match w with
    | ⟨0, _⟩ => fullShare.left.left
    | ⟨1, _⟩ => fullShare.left.right
    | ⟨2, _⟩ => fullShare.right.left
    | ⟨3, _⟩ => fullShare.right.right
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = outBlock (iblk m c 0 t) (iblk m c 1 t) (iblk m c 2 t) (iblk m c 3 t) (iblk m c 4 t) := by dsimp only [dats]

/-- An input's current staging buffer holds its block at every point, fetched there or not: an unfetched
    window's block index has not moved (the table's never moves), and the body leaves the block in place. -/
theorem before0 (c : Dev nD) (t : Fin cfg0.N) (d) : (dats m 0 c).before 0 t d = iblk m c 0 t :=
  ((dats m 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
      (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl)
      (fun t => by rw [after4]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant
    and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The index array's share, dealt in quarters -/

/-- The three buffers behind the six windows' arrays, each whole at the full share, make the proof data's
    arrays: the index array's full share splits into the four quarters its four windows hold; the table's and
    the result's go to their one window whole. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have e : (dats m 0 c).arrays ((dats m 0 c).arrAt · 0)
      = bigSep Finset.univ fun w : Fin 6 => (((c.tc : Thread nD τ).loc (Pipeline.arrRef spec0 w)) ↦{(dats m 0 c).share w} V m c (Pipeline.arrRef spec0 w) : sProp 𝕄) := by
    unfold Dat.arrays
    exact bigSep_congr fun w _ => by rw [(arr_whole0 w).set_eq_univ]; rfl
  rw [e, bigSep_W0]
  unfold Pipeline.arrBufs
  rw [bigSep_eq_bigSepL_of_eq [main_arg0, main_arg1, main_v0] (by decide) (by decide)]
  show iprop((((c.tc : Thread nD τ).loc main_arg0) ↦{fullShare} V m c main_arg0)
        ∗ (((c.tc : Thread nD τ).loc main_arg1) ↦{fullShare} V m c main_arg1)
        ∗ (((c.tc : Thread nD τ).loc main_v0) ↦{fullShare} V m c main_v0))
      ⊢ (iprop((((c.tc : Thread nD τ).loc main_arg0) ↦{fullShare.left.left} V m c main_arg0)
        ∗ (((c.tc : Thread nD τ).loc main_arg0) ↦{fullShare.left.right} V m c main_arg0)
        ∗ (((c.tc : Thread nD τ).loc main_arg0) ↦{fullShare.right.left} V m c main_arg0)
        ∗ (((c.tc : Thread nD τ).loc main_arg0) ↦{fullShare.right.right} V m c main_arg0)
        ∗ (((c.tc : Thread nD τ).loc main_arg1) ↦{fullShare} V m c main_arg1)
        ∗ (((c.tc : Thread nD τ).loc main_v0) ↦{fullShare} V m c main_v0)) : sProp 𝕄)
  iintro ⟨H0, H1, H2⟩
  ihave Hq := (pointsTo_quarters Finset.univ fullShare (V m c main_arg0)) $$ H0
  icases Hq with ⟨Ha, Hb, Hc, Hd⟩
  isplitl [Ha]; · iexact Ha
  isplitl [Hb]; · iexact Hb
  isplitl [Hc]; · iexact Hc
  isplitl [Hd]; · iexact Hd
  isplitl [H1]; · iexact H1
  iexact H2

/-! ## The run and the frame -/

set_option backward.isDefEq.respectTransparency.types false in
/-- From any memory with zero counters every weakly fair execution of the program terminates, and every final
    state has each window's array at what the write-backs leave and every other unscoped buffer as found. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := hsplit m) (hΦ := fun _ _ => rfl)

/-- The argument arrays end unchanged: an input window's array is never written. -/
theorem kept_arg0 (r : PUnit × MemSt nD τ sig (Elt F)) (h : Pipeline.FramePost cfgs (dats m) 0 (V m) r) (c : Dev nD) :
    r.2.mem ((c.tc : Thread nD τ).loc main_arg0) = m ((c.tc : Thread nD τ).loc main_arg0) :=
  ((h c).1 0).trans (((dats m 0 c).arrAt_in 0 rfl _).trans (A_eq m c 0))

theorem kept_arg1 (r : PUnit × MemSt nD τ sig (Elt F)) (h : Pipeline.FramePost cfgs (dats m) 0 (V m) r) (c : Dev nD) :
    r.2.mem ((c.tc : Thread nD τ).loc main_arg1) = m ((c.tc : Thread nD τ).loc main_arg1) :=
  ((h c).1 4).trans (((dats m 0 c).arrAt_in 4 rfl _).trans (A_eq m c 4))

/-- The result array after the run is what the sixteen write-backs leave of its entry contents. -/
theorem post_result (r : PUnit × MemSt nD τ sig (Elt F)) (h : Pipeline.FramePost cfgs (dats m) 0 (V m) r) (c : Dev nD) :
    r.2.mem ((c.tc : Thread nD τ).loc main_v0) = (dats m 0 c).arrAt 5 cfg0.N :=
  (h c).1 5

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨kept_arg0 m r h c, kept_arg1 m r h c⟩) (run_main m ρ)

end Cert.Kernel.Frame

end
-- ==== Proof.KernelIdealFrame.lean ====
/-
  The frame of the program `KernelIdeal`: it runs to the end, faults nowhere, and leaves its argument arrays
  unchanged — with each window's array after the run named, for a claim about the result to read.

  The region has sixteen grid points. At point t the body is handed four consecutive 256-row blocks of the
  index array (rows 1024·t + 256·k, k = 0..3, through four windows on that ONE array), the whole table, and
  a 1024-row output block. It turns each index block into a 0/1 mask, multiplies the mask by the table, and
  stores the four 256×64 products into the four row-quarters of the output block, which therefore ends
  covered. Nothing is carried from point to point.

  The index array is read through four windows, so its buffer's full share is dealt among them in quarters;
  the table and the result are each one window's, held whole.
-/
import proofs.«180119_g78932908965942_cont_9to1_m_659_3_alg».proof.Proof.Gen.KernelIdeal.Launch
import proofs.«180119_g78932908965942_cont_9to1_m_659_3_alg».proof.Proof.Gen.KernelIdeal.Skeleton
import proofs.«180119_g78932908965942_cont_9to1_m_659_3_alg».proof.Proof.Gen.KernelIdeal.Points
import proofs.«180119_g78932908965942_cont_9to1_m_659_3_alg».proof.Proof.LibSharedFrame
import Idealize.ShloMosaic.Lib.Pipeline.FrameBody
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its region -/

/-- A core's buffers when the region is entered: as launched (the program is the region alone). -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

/-- The whole table, the whole of an index block, and the four row-quarters of the output block. -/
abbrev rTab : Rect S1000x64 := Rect.unit (s := S1000x64) ![0, 0] S1000x64.size inb_S1000x64_S1000x64_0_0
abbrev rIdx : Rect S256x1000 := Rect.unit (s := S256x1000) ![0, 0] S256x1000.size inb_S256x1000_S256x1000_0_0
abbrev rQ0 : Rect S1024x64 := Rect.unit (s := S1024x64) ![0, 0] S256x64.size inb_S1024x64_S256x64_0_0
abbrev rQ1 : Rect S1024x64 := Rect.unit (s := S1024x64) ![256, 0] S256x64.size inb_S1024x64_S256x64_256_0
abbrev rQ2 : Rect S1024x64 := Rect.unit (s := S1024x64) ![512, 0] S256x64.size inb_S1024x64_S256x64_512_0
abbrev rQ3 : Rect S1024x64 := Rect.unit (s := S1024x64) ![768, 0] S256x64.size inb_S1024x64_S256x64_768_0

/-! ## What the body leaves in the output block -/

/-- The output block after the body, from the four index blocks and the table: its four stores, the last
    first; quarter k is the masked product of index block k with the table. -/
def outBlock (x0 x1 x2 x3 : Vec F S256x1000 .i32) (tab : Vec F S1000x64 .f32) : Vec F S1024x64 .f32 :=
  View.canon [⟨rQ3, k0_pay4 (View.ld tab rTab) (View.ld x3 rIdx)⟩, ⟨rQ2, k0_pay3 (View.ld tab rTab) (View.ld x2 rIdx)⟩,
    ⟨rQ1, k0_pay2 (View.ld tab rTab) (View.ld x1 rIdx)⟩, ⟨rQ0, k0_pay1 (View.ld tab rTab) (View.ld x0 rIdx)⟩]

/-- The four quarters tile the block, so they cover it. -/
theorem quarters_cover (p3 p2 p1 p0 : Vec F S256x64 .f32) (y : S1024x64.Idx) :
    ∃ pc ∈ ([⟨rQ3, p3⟩, ⟨rQ2, p2⟩, ⟨rQ1, p1⟩, ⟨rQ0, p0⟩] : List (View.Piece (Elt F) S1024x64 .f32)), y ∈ pc.1.set :=
  View.cover_of_tiled [⟨rQ3, p3⟩, ⟨rQ2, p2⟩, ⟨rQ1, p1⟩, ⟨rQ0, p0⟩] S256x64.size (by rfl) y

/-! ## The body's triple -/

set_option maxHeartbeats 1000000 in
/-- The body on whole staging memrefs — the four index blocks and the table at contents it reads, the output at
    anything — runs to the continuation holding the inputs as they were and the output at `outBlock` of them. -/
theorem sound_kernel (c : Dev nD) (E : Set ℕ) (i : grid0.Coords)
    (a1 : Memref sig .tc .vmem S256x1000 .i32) (h1 : a1.IsWhole) (a2 : Memref sig .tc .vmem S256x1000 .i32) (h2 : a2.IsWhole)
    (a3 : Memref sig .tc .vmem S256x1000 .i32) (h3 : a3.IsWhole) (a4 : Memref sig .tc .vmem S256x1000 .i32) (h4 : a4.IsWhole)
    (a5 : Memref sig .tc .vmem S1000x64 .f32) (h5 : a5.IsWhole) (a6 : Memref sig .tc .vmem S1024x64 .f32) (h6 : a6.IsWhole)
    (x0 x1 x2 x3 : Vec F S256x1000 .i32) (tab : Vec F S1000x64 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare tab ∗ (∃ d, owns (c : Thread nD τ) a6 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare tab
            ∗ owns (c : Thread nD τ) a6 fullShare (outBlock x0 x1 x2 x3 tab)) -∗ K ⟨⟩))
      ⊢ wp frame (wpE (defs₀ (F := F)) Variants.none c none) E (cc0__embed_block i a1 h1 a2 h2 a3 h3 a4 h4 a5 h5 a6 h6) K := by
  simp only [cc0__embed_block_eq_skeleton]; unfold cc0__embed_block_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (quarters_cover _ _ _ _)

end Cert.KernelIdeal.Frame

end
-- ==== Proof.KernelIdealRun.lean ====
/-
  The run of the program `KernelIdeal` from its body's triple: the proof data of its one pipeline, the body
  obligation at every grid point, how the index array's full share is dealt in quarters among the four windows
  that read it, and the frame.
-/
import proofs.«180119_g78932908965942_cont_9to1_m_659_3_alg».proof.Proof.KernelIdealFrame

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The proof data of the pipeline on core `c`: the arrays as the region finds them; after the body at point `t`
    each input's buffer still at its block and the output's at `outBlock` of the input blocks; the invariant the
    scoped buffers that are no staging buffer (the body touches none); nothing owed; the index array's four
    windows at the four quarters of the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.scopedRest (Ix := Unit) (Name := ℕ) (U := UR sig nD τ) (Lvl := ℕ) (Val := Elt F) spec0 c
  q w := match w with
    | ⟨0, _⟩ => fullShare.left.left
    | ⟨1, _⟩ => fullShare.left.right
    | ⟨2, _⟩ => fullShare.right.left
    | ⟨3, _⟩ => fullShare.right.right
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = outBlock (iblk m c 0 t) (iblk m c 1 t) (iblk m c 2 t) (iblk m c 3 t) (iblk m c 4 t) := by dsimp only [dats]

/-- An input's current staging buffer holds its block at every point, fetched there or not: an unfetched
    window's block index has not moved (the table's never moves), and the body leaves the block in place. -/
theorem before0 (c : Dev nD) (t : Fin cfg0.N) (d) : (dats m 0 c).before 0 t d = iblk m c 0 t :=
  ((dats m 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
      (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl)
      (fun t => by rw [after4]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant
    and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The index array's share, dealt in quarters -/

/-- The three buffers behind the six windows' arrays, each whole at the full share, make the proof data's
    arrays: the index array's full share splits into the four quarters its four windows hold; the table's and
    the result's go to their one window whole. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have e : (dats m 0 c).arrays ((dats m 0 c).arrAt · 0)
      = bigSep Finset.univ fun w : Fin 6 => (((c.tc : Thread nD τ).loc (Pipeline.arrRef spec0 w)) ↦{(dats m 0 c).share w} V m c (Pipeline.arrRef spec0 w) : sProp 𝕄) := by
    unfold Dat.arrays
    exact bigSep_congr fun w _ => by rw [(arr_whole0 w).set_eq_univ]; rfl
  rw [e, bigSep_W0]
  unfold Pipeline.arrBufs
  rw [bigSep_eq_bigSepL_of_eq [main_arg0, main_arg1, main_v0] (by decide) (by decide)]
  show iprop((((c.tc : Thread nD τ).loc main_arg0) ↦{fullShare} V m c main_arg0)
        ∗ (((c.tc : Thread nD τ).loc main_arg1) ↦{fullShare} V m c main_arg1)
        ∗ (((c.tc : Thread nD τ).loc main_v0) ↦{fullShare} V m c main_v0))
      ⊢ (iprop((((c.tc : Thread nD τ).loc main_arg0) ↦{fullShare.left.left} V m c main_arg0)
        ∗ (((c.tc : Thread nD τ).loc main_arg0) ↦{fullShare.left.right} V m c main_arg0)
        ∗ (((c.tc : Thread nD τ).loc main_arg0) ↦{fullShare.right.left} V m c main_arg0)
        ∗ (((c.tc : Thread nD τ).loc main_arg0) ↦{fullShare.right.right} V m c main_arg0)
        ∗ (((c.tc : Thread nD τ).loc main_arg1) ↦{fullShare} V m c main_arg1)
        ∗ (((c.tc : Thread nD τ).loc main_v0) ↦{fullShare} V m c main_v0)) : sProp 𝕄)
  iintro ⟨H0, H1, H2⟩
  ihave Hq := (pointsTo_quarters Finset.univ fullShare (V m c main_arg0)) $$ H0
  icases Hq with ⟨Ha, Hb, Hc, Hd⟩
  isplitl [Ha]; · iexact Ha
  isplitl [Hb]; · iexact Hb
  isplitl [Hc]; · iexact Hc
  isplitl [Hd]; · iexact Hd
  isplitl [H1]; · iexact H1
  iexact H2

/-! ## The run and the frame -/

set_option backward.isDefEq.respectTransparency.types false in
/-- From any memory with zero counters every weakly fair execution of the program terminates, and every final
    state has each window's array at what the write-backs leave and every other unscoped buffer as found. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := hsplit m) (hΦ := fun _ _ => rfl)

/-- The argument arrays end unchanged: an input window's array is never written. -/
theorem kept_arg0 (r : PUnit × MemSt nD τ sig (Elt F)) (h : Pipeline.FramePost cfgs (dats m) 0 (V m) r) (c : Dev nD) :
    r.2.mem ((c.tc : Thread nD τ).loc main_arg0) = m ((c.tc : Thread nD τ).loc main_arg0) :=
  ((h c).1 0).trans (((dats m 0 c).arrAt_in 0 rfl _).trans (A_eq m c 0))

theorem kept_arg1 (r : PUnit × MemSt nD τ sig (Elt F)) (h : Pipeline.FramePost cfgs (dats m) 0 (V m) r) (c : Dev nD) :
    r.2.mem ((c.tc : Thread nD τ).loc main_arg1) = m ((c.tc : Thread nD τ).loc main_arg1) :=
  ((h c).1 4).trans (((dats m 0 c).arrAt_in 4 rfl _).trans (A_eq m c 4))

/-- The result array after the run is what the sixteen write-backs leave of its entry contents. -/
theorem post_result (r : PUnit × MemSt nD τ sig (Elt F)) (h : Pipeline.FramePost cfgs (dats m) 0 (V m) r) (c : Dev nD) :
    r.2.mem ((c.tc : Thread nD τ).loc main_v0) = (dats m 0 c).arrAt 5 cfg0.N :=
  (h c).1 5

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨kept_arg0 m r h c, kept_arg1 m r h c⟩) (run_main m ρ)

end Cert.KernelIdeal.Frame

end
-- ==== Proof.Spec.lean ====
/-
  The result both programs compute, as one function of the two argument arrays.

  Row r of the index array is read as a 0/1 indicator vector (entry k is 1 when the word at (r, k) is not
  zero), and row r of the result is that indicator vector times the table:

      result (r, c) = ∑ k < 1000, [idx (r, k) ≠ 0] · W (k, c).

  The kernel widens the comparison bit to a 32-bit word and reads it as a signed integer; the reference
  reads the bit itself as an unsigned integer. Both readings of a single bit are 0 or 1, the same number.
-/
import Idealize.ShloMosaic.PureOps.Ideal
import Idealize.ShloMosaic.Lib.ValueIdx

noncomputable section

namespace Cert.MaskedRows

open Idealize.ShloMosaic Idealize.ShloMosaic.ValueIdx

/-- The indicator of a nonzero 32-bit word as an extended real: 1 when the word is not zero, 0 when it is. -/
def ind (v : BitVec 32) : EReal := FloatOps.uitofp (F := Ideal) .f32 (IntOp.cmpi .ne v 0#32)

/-- Row r of the result is the indicator of row r of the index array times the table. -/
def maskedRows (idx : (⟨2, ![16384, 1000]⟩ : Shape).Idx → BitVec 32) (W : (⟨2, ![1000, 64]⟩ : Shape).Idx → EReal) :
    (⟨2, ![16384, 64]⟩ : Shape).Idx → EReal :=
  fun i => ∑ k : Fin 1000, ind (idx (ix2 (i 0) k)) * W (ix2 k (i 1))

/-- A single bit widened with zeros to 32 bits reads, as a signed integer, as the bit's own value. -/
theorem toInt_widen_bit (b : BitVec 1) : (b.setWidth 32).toInt = (b.toNat : ℤ) := by
  have h : b = 0#1 ∨ b = 1#1 := by
    obtain ⟨⟨n, hn⟩⟩ := b
    have : n = 0 ∨ n = 1 := by omega
    rcases this with rfl | rfl
    · left; rfl
    · right; rfl
  rcases h with rfl | rfl <;> decide

/-- The kernel's mask entry — the comparison bit widened to a word, read signed — is the indicator. -/
theorem signed_widened_bit (v : BitVec 32) :
    FloatOps.sitofp (F := Ideal) .f32 ((IntOp.cmpi .ne v 0#32).setWidth 32) = ind v := by
  unfold ind
  show ((((IntOp.cmpi .ne v 0#32).setWidth 32).toInt : ℝ) : EReal) = ((((IntOp.cmpi .ne v 0#32).toNat : ℕ) : ℝ) : EReal)
  rw [toInt_widen_bit, Int.cast_natCast]

end Cert.MaskedRows

end
-- ==== Proof.Payload.lean ====
/-
  The kernel's arithmetic at an index. Each of the body's four stores writes the product of a 256×1000 mask —
  the indicator of the nonzero words of one index block — with the 1000×64 table, into a zero accumulator:
  entry (p, q) of the product is ∑ k < 1000, [x (p, k) ≠ 0] · tab (k, q).
-/
import proofs.«180119_g78932908965942_cont_9to1_m_659_3_alg».proof.Proof.Gen.KernelIdeal.Skeleton
import proofs.«180119_g78932908965942_cont_9to1_m_659_3_alg».proof.Proof.Spec
import Idealize.ShloMosaic.PureOps.Ideal.Laws
import Idealize.ShloMosaic.Lib.ValueIdx

noncomputable section

namespace Cert.KernelIdeal.Payload

open Cert.KernelIdeal Cert.KernelIdeal.Gen Idealize.ShloMosaic Idealize.ShloMosaic.ValueIdx Cert.MaskedRows

/-- The contraction reads the mask along its row and the table down its column: the mask's index at the
    k-th term of output entry (p, q) is (p, k), -/
theorem lhs_at (j : S256x64.Idx) (k : Fin 1000) :
    dot_S256x1000_S1000x64_S256x64_1_0_0_1_n_n.lhsIdx j ((contrEquiv1 dot_S256x1000_S1000x64_S256x64_1_0_0_1_n_n 1000 rfl rfl).symm k) = ix2 (j 0) k := by
  have hk := contrEquiv1_symm_val dot_S256x1000_S1000x64_S256x64_1_0_0_1_n_n 1000 rfl rfl k
  funext a; apply Fin.ext
  match a with
  | ⟨0, _⟩ =>
    show (dot_S256x1000_S1000x64_S256x64_1_0_0_1_n_n.lhsIdx j _ 0).val = (j 0).val
    unfold DotDims.lhsIdx
    rw [dif_neg (show ¬(0 : Fin S256x1000.rank) ∈ dot_S256x1000_S1000x64_S256x64_1_0_0_1_n_n.lhsBatch by decide), dif_pos (show (0 : Fin S256x1000.rank) ∈ dot_S256x1000_S1000x64_S256x64_1_0_0_1_n_n.lhsNonContracting by decide)]
    rfl
  | ⟨1, _⟩ => exact (dot_S256x1000_S1000x64_S256x64_1_0_0_1_n_n.lhsIdx_val_of_single rfl j _).trans hk

/-- and the table's is (k, q). -/
theorem rhs_at (j : S256x64.Idx) (k : Fin 1000) :
    dot_S256x1000_S1000x64_S256x64_1_0_0_1_n_n.rhsIdx j ((contrEquiv1 dot_S256x1000_S1000x64_S256x64_1_0_0_1_n_n 1000 rfl rfl).symm k) = ix2 k (j 1) := by
  have hk := contrEquiv1_symm_val dot_S256x1000_S1000x64_S256x64_1_0_0_1_n_n 1000 rfl rfl k
  funext a; apply Fin.ext
  match a with
  | ⟨0, _⟩ => exact (dot_S256x1000_S1000x64_S256x64_1_0_0_1_n_n.rhsIdx_val_of_single rfl j _).trans hk
  | ⟨1, _⟩ =>
    show (dot_S256x1000_S1000x64_S256x64_1_0_0_1_n_n.rhsIdx j _ 1).val = (j 1).val
    unfold DotDims.rhsIdx
    rw [dif_neg (show ¬(1 : Fin S1000x64.rank) ∈ dot_S256x1000_S1000x64_S256x64_1_0_0_1_n_n.rhsBatch by decide), dif_pos (show (1 : Fin S1000x64.rank) ∈ dot_S256x1000_S1000x64_S256x64_1_0_0_1_n_n.rhsNonContracting by decide)]
    rfl

/-- The masked product of an index block with the table, at entry (p, q). -/
theorem masked_product_apply (tab : Vec Ideal S1000x64 .f32) (x : Vec Ideal S256x1000 .i32) (p : Fin 256) (q : Fin 64) :
    k0_pay1 (F := Ideal) tab x (ix2 p q) = ∑ k : Fin 1000, ind (x (ix2 p k)) * tab (ix2 k q) := by
  unfold k0_pay1
  refine (Ideal.matmul_constant_zero_apply dot_S256x1000_S1000x64_S256x64_1_0_0_1_n_n none _ _ (ix2 p q)).trans ?_
  rw [← Equiv.sum_comp (contrEquiv1 dot_S256x1000_S1000x64_S256x64_1_0_0_1_n_n 1000 rfl rfl).symm]
  refine Finset.sum_congr rfl fun k _ => ?_
  rw [lhs_at, rhs_at]
  exact congrArg (· * tab (ix2 k q)) (signed_widened_bit (x (ix2 p k)))

/-- The four stores' payloads are one function of their index block and the table. -/
theorem pay2_eq (tab : Vec Ideal S1000x64 .f32) (x : Vec Ideal S256x1000 .i32) : k0_pay2 (F := Ideal) tab x = k0_pay1 (F := Ideal) tab x := rfl
theorem pay3_eq (tab : Vec Ideal S1000x64 .f32) (x : Vec Ideal S256x1000 .i32) : k0_pay3 (F := Ideal) tab x = k0_pay1 (F := Ideal) tab x := rfl
theorem pay4_eq (tab : Vec Ideal S1000x64 .f32) (x : Vec Ideal S256x1000 .i32) : k0_pay4 (F := Ideal) tab x = k0_pay1 (F := Ideal) tab x := rfl

end Cert.KernelIdeal.Payload

end
-- ==== Proof.KernelIdealValue.lean ====
/-
  The result array after the idealized kernel's run, as one function of the argument arrays.

  Point t writes back rows 1024·t … 1024·t + 1023 of the result. Quarter k of that block was computed from
  index rows (4·t + k)·256 …, which are the same rows 1024·t + 256·k … of the index array, and from the whole
  table; so the block is the block of `maskedRows` there. The sixteen blocks cover all 16384 rows (row r is in
  block r / 1024), so the whole array ends at `maskedRows` of the arguments.
-/
import proofs.«180119_g78932908965942_cont_9to1_m_659_3_alg».proof.Proof.KernelIdealRun
import proofs.«180119_g78932908965942_cont_9to1_m_659_3_alg».proof.Proof.Payload
import Idealize.ShloMosaic.Lib.Pipeline.Value

set_option maxRecDepth 16384

noncomputable section

namespace Cert.KernelIdeal.Result

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Frame Cert.KernelIdeal.Payload Cert.MaskedRows

variable (m : (ℓ : Loc nD τ sig) → Buf (Elt Ideal) ℓ) (ρ : Dev nD → PrngReg)

/-- The printed index maps, decided over the grid: index window k sits at block row 4·t + k where the output
    sits at block row t; no window moves along the columns; the output's block row stays below 16. -/
theorem idx_facts : ∀ t : Fin cfg0.N,
    win0_0.index t (0 : Fin 2) = 4 * win0_5.index t (0 : Fin 2) + 0 ∧ win0_0.index t (1 : Fin 2) = 0
    ∧ win0_1.index t (0 : Fin 2) = 4 * win0_5.index t (0 : Fin 2) + 1 ∧ win0_1.index t (1 : Fin 2) = 0
    ∧ win0_2.index t (0 : Fin 2) = 4 * win0_5.index t (0 : Fin 2) + 2 ∧ win0_2.index t (1 : Fin 2) = 0
    ∧ win0_3.index t (0 : Fin 2) = 4 * win0_5.index t (0 : Fin 2) + 3 ∧ win0_3.index t (1 : Fin 2) = 0
    ∧ win0_4.index t (0 : Fin 2) = 0 ∧ win0_4.index t (1 : Fin 2) = 0
    ∧ win0_5.index t (0 : Fin 2) ≤ 15 ∧ win0_5.index t (1 : Fin 2) = 0 :=
  (by decide +kernel : ∀ t : Fin grid0.N, _)

/-- Every block row of the result is some point's. -/
theorem idx_onto : ∀ q0 : Fin 16, ∃ t : Fin cfg0.N, win0_5.index t = ![q0.val, 0] :=
  (by decide +kernel : ∀ q0 : Fin 16, ∃ t : Fin grid0.N, win0_5.index t = ![q0.val, 0])

/-- Quarter 0 of point t's block, at entry (p, q), is `maskedRows` at the array index under it: index window 0
    sits at rows (4·t + 0)·256 + p = 1024·t + 0 + p. -/
theorem quarter0 (c : Dev nD) (t : Fin cfg0.N) (p : Fin 256) (q : Fin 64) :
    k0_pay1 (F := Ideal) (View.ld (iblk m c 4 t) rTab) (View.ld (iblk m c 0 t) rIdx) (ix2 p q)
      = maskedRows (V m c main_arg0) (V m c main_arg1) (((cfg0.win 5).blk t).view.emb (rQ0.emb (ix2 p q))) := by
  rw [masked_product_apply]
  unfold maskedRows
  refine Finset.sum_congr rfl fun k _ => ?_
  obtain ⟨e00, e01, e10, e11, e20, e21, e30, e31, e40, e41, e50, e51⟩ := idx_facts t
  have hI : View.ld (iblk m c 0 t) rIdx (ix2 p k)
      = V m c main_arg0 (ix2 (((cfg0.win 5).blk t).view.emb (rQ0.emb (ix2 p q)) 0) k) := by
    show V m c main_arg0 (((cfg0.win 0).blk t).view.emb (rIdx.idx (ix2 p k))) = _
    refine congrArg (V m c main_arg0) ?_
    funext a; apply Fin.ext
    match a with
    | ⟨0, _⟩ =>
      show win0_0.index t (0 : Fin 2) * 256 + 1 * (0 + 1 * p.val) = win0_5.index t (0 : Fin 2) * 1024 + 1 * (0 + 1 * p.val)
      omega
    | ⟨1, _⟩ =>
      show win0_0.index t (1 : Fin 2) * 1000 + 1 * (0 + 1 * k.val) = k.val
      omega
  have hT : View.ld (iblk m c 4 t) rTab (ix2 k q)
      = V m c main_arg1 (ix2 k (((cfg0.win 5).blk t).view.emb (rQ0.emb (ix2 p q)) 1)) := by
    show V m c main_arg1 (((cfg0.win 4).blk t).view.emb (rTab.idx (ix2 k q))) = _
    refine congrArg (V m c main_arg1) ?_
    funext a; apply Fin.ext
    match a with
    | ⟨0, _⟩ =>
      show win0_4.index t (0 : Fin 2) * 1000 + 1 * (0 + 1 * k.val) = k.val
      omega
    | ⟨1, _⟩ =>
      show win0_4.index t (1 : Fin 2) * 64 + 1 * (0 + 1 * q.val) = win0_5.index t (1 : Fin 2) * 64 + 1 * (0 + 1 * q.val)
      omega
  rw [hI, hT]

/-- Quarter 1 of point t's block, at entry (p, q), is `maskedRows` at the array index under it: index window 1
    sits at rows (4·t + 1)·256 + p = 1024·t + 256 + p. -/
theorem quarter1 (c : Dev nD) (t : Fin cfg0.N) (p : Fin 256) (q : Fin 64) :
    k0_pay2 (F := Ideal) (View.ld (iblk m c 4 t) rTab) (View.ld (iblk m c 1 t) rIdx) (ix2 p q)
      = maskedRows (V m c main_arg0) (V m c main_arg1) (((cfg0.win 5).blk t).view.emb (rQ1.emb (ix2 p q))) := by
  rw [pay2_eq, masked_product_apply]
  unfold maskedRows
  refine Finset.sum_congr rfl fun k _ => ?_
  obtain ⟨e00, e01, e10, e11, e20, e21, e30, e31, e40, e41, e50, e51⟩ := idx_facts t
  have hI : View.ld (iblk m c 1 t) rIdx (ix2 p k)
      = V m c main_arg0 (ix2 (((cfg0.win 5).blk t).view.emb (rQ1.emb (ix2 p q)) 0) k) := by
    show V m c main_arg0 (((cfg0.win 1).blk t).view.emb (rIdx.idx (ix2 p k))) = _
    refine congrArg (V m c main_arg0) ?_
    funext a; apply Fin.ext
    match a with
    | ⟨0, _⟩ =>
      show win0_1.index t (0 : Fin 2) * 256 + 1 * (0 + 1 * p.val) = win0_5.index t (0 : Fin 2) * 1024 + 1 * (256 + 1 * p.val)
      omega
    | ⟨1, _⟩ =>
      show win0_1.index t (1 : Fin 2) * 1000 + 1 * (0 + 1 * k.val) = k.val
      omega
  have hT : View.ld (iblk m c 4 t) rTab (ix2 k q)
      = V m c main_arg1 (ix2 k (((cfg0.win 5).blk t).view.emb (rQ1.emb (ix2 p q)) 1)) := by
    show V m c main_arg1 (((cfg0.win 4).blk t).view.emb (rTab.idx (ix2 k q))) = _
    refine congrArg (V m c main_arg1) ?_
    funext a; apply Fin.ext
    match a with
    | ⟨0, _⟩ =>
      show win0_4.index t (0 : Fin 2) * 1000 + 1 * (0 + 1 * k.val) = k.val
      omega
    | ⟨1, _⟩ =>
      show win0_4.index t (1 : Fin 2) * 64 + 1 * (0 + 1 * q.val) = win0_5.index t (1 : Fin 2) * 64 + 1 * (0 + 1 * q.val)
      omega
  rw [hI, hT]

/-- Quarter 2 of point t's block, at entry (p, q), is `maskedRows` at the array index under it: index window 2
    sits at rows (4·t + 2)·256 + p = 1024·t + 512 + p. -/
theorem quarter2 (c : Dev nD) (t : Fin cfg0.N) (p : Fin 256) (q : Fin 64) :
    k0_pay3 (F := Ideal) (View.ld (iblk m c 4 t) rTab) (View.ld (iblk m c 2 t) rIdx) (ix2 p q)
      = maskedRows (V m c main_arg0) (V m c main_arg1) (((cfg0.win 5).blk t).view.emb (rQ2.emb (ix2 p q))) := by
  rw [pay3_eq, masked_product_apply]
  unfold maskedRows
  refine Finset.sum_congr rfl fun k _ => ?_
  obtain ⟨e00, e01, e10, e11, e20, e21, e30, e31, e40, e41, e50, e51⟩ := idx_facts t
  have hI : View.ld (iblk m c 2 t) rIdx (ix2 p k)
      = V m c main_arg0 (ix2 (((cfg0.win 5).blk t).view.emb (rQ2.emb (ix2 p q)) 0) k) := by
    show V m c main_arg0 (((cfg0.win 2).blk t).view.emb (rIdx.idx (ix2 p k))) = _
    refine congrArg (V m c main_arg0) ?_
    funext a; apply Fin.ext
    match a with
    | ⟨0, _⟩ =>
      show win0_2.index t (0 : Fin 2) * 256 + 1 * (0 + 1 * p.val) = win0_5.index t (0 : Fin 2) * 1024 + 1 * (512 + 1 * p.val)
      omega
    | ⟨1, _⟩ =>
      show win0_2.index t (1 : Fin 2) * 1000 + 1 * (0 + 1 * k.val) = k.val
      omega
  have hT : View.ld (iblk m c 4 t) rTab (ix2 k q)
      = V m c main_arg1 (ix2 k (((cfg0.win 5).blk t).view.emb (rQ2.emb (ix2 p q)) 1)) := by
    show V m c main_arg1 (((cfg0.win 4).blk t).view.emb (rTab.idx (ix2 k q))) = _
    refine congrArg (V m c main_arg1) ?_
    funext a; apply Fin.ext
    match a with
    | ⟨0, _⟩ =>
      show win0_4.index t (0 : Fin 2) * 1000 + 1 * (0 + 1 * k.val) = k.val
      omega
    | ⟨1, _⟩ =>
      show win0_4.index t (1 : Fin 2) * 64 + 1 * (0 + 1 * q.val) = win0_5.index t (1 : Fin 2) * 64 + 1 * (0 + 1 * q.val)
      omega
  rw [hI, hT]

/-- Quarter 3 of point t's block, at entry (p, q), is `maskedRows` at the array index under it: index window 3
    sits at rows (4·t + 3)·256 + p = 1024·t + 768 + p. -/
theorem quarter3 (c : Dev nD) (t : Fin cfg0.N) (p : Fin 256) (q : Fin 64) :
    k0_pay4 (F := Ideal) (View.ld (iblk m c 4 t) rTab) (View.ld (iblk m c 3 t) rIdx) (ix2 p q)
      = maskedRows (V m c main_arg0) (V m c main_arg1) (((cfg0.win 5).blk t).view.emb (rQ3.emb (ix2 p q))) := by
  rw [pay4_eq, masked_product_apply]
  unfold maskedRows
  refine Finset.sum_congr rfl fun k _ => ?_
  obtain ⟨e00, e01, e10, e11, e20, e21, e30, e31, e40, e41, e50, e51⟩ := idx_facts t
  have hI : View.ld (iblk m c 3 t) rIdx (ix2 p k)
      = V m c main_arg0 (ix2 (((cfg0.win 5).blk t).view.emb (rQ3.emb (ix2 p q)) 0) k) := by
    show V m c main_arg0 (((cfg0.win 3).blk t).view.emb (rIdx.idx (ix2 p k))) = _
    refine congrArg (V m c main_arg0) ?_
    funext a; apply Fin.ext
    match a with
    | ⟨0, _⟩ =>
      show win0_3.index t (0 : Fin 2) * 256 + 1 * (0 + 1 * p.val) = win0_5.index t (0 : Fin 2) * 1024 + 1 * (768 + 1 * p.val)
      omega
    | ⟨1, _⟩ =>
      show win0_3.index t (1 : Fin 2) * 1000 + 1 * (0 + 1 * k.val) = k.val
      omega
  have hT : View.ld (iblk m c 4 t) rTab (ix2 k q)
      = V m c main_arg1 (ix2 k (((cfg0.win 5).blk t).view.emb (rQ3.emb (ix2 p q)) 1)) := by
    show V m c main_arg1 (((cfg0.win 4).blk t).view.emb (rTab.idx (ix2 k q))) = _
    refine congrArg (V m c main_arg1) ?_
    funext a; apply Fin.ext
    match a with
    | ⟨0, _⟩ =>
      show win0_4.index t (0 : Fin 2) * 1000 + 1 * (0 + 1 * k.val) = k.val
      omega
    | ⟨1, _⟩ =>
      show win0_4.index t (1 : Fin 2) * 64 + 1 * (0 + 1 * q.val) = win0_5.index t (1 : Fin 2) * 64 + 1 * (0 + 1 * q.val)
      omega
  rw [hI, hT]

/-- WHAT POINT t WRITES BACK is block t of `maskedRows` of the argument arrays as the region finds them: each of
    the body's four stores is the quarter of that block its rectangle names, and the quarters cover the block. -/
theorem flushed_eq (c : Dev nD) (t : Fin cfg0.N) :
    (dats m 0 c).flushed 5 t
      = ((cfg0.win 5).blk t).view.read (Elt Ideal) (maskedRows (V m c main_arg0) (V m c main_arg1)) := by
  show (cfg0.win 5).cut (grid0.coords t) ((dats m 0 c).after 5 t) = _
  rw [after5]
  unfold outBlock
  funext j
  refine (View.canon_apply_of_pieces
    (fun y => maskedRows (V m c main_arg0) (V m c main_arg1) (((cfg0.win 5).blk t).view.emb y)) _ ?_ j
    (quarters_cover _ _ _ _ j)).trans ?_
  · intro pc hpc x
    simp only [List.mem_cons, List.not_mem_nil, or_false] at hpc
    rcases hpc with rfl | rfl | rfl | rfl
    · obtain ⟨p, q, rfl⟩ : ∃ (p : Fin 256) (q : Fin 64), x = ix2 p q := ⟨x 0, x 1, eq_ix2 x⟩
      exact quarter3 m c t p q
    · obtain ⟨p, q, rfl⟩ : ∃ (p : Fin 256) (q : Fin 64), x = ix2 p q := ⟨x 0, x 1, eq_ix2 x⟩
      exact quarter2 m c t p q
    · obtain ⟨p, q, rfl⟩ : ∃ (p : Fin 256) (q : Fin 64), x = ix2 p q := ⟨x 0, x 1, eq_ix2 x⟩
      exact quarter1 m c t p q
    · obtain ⟨p, q, rfl⟩ : ∃ (p : Fin 256) (q : Fin 64), x = ix2 p q := ⟨x 0, x 1, eq_ix2 x⟩
      exact quarter0 m c t p q
  · rfl

/-- An index of the result is in point t's block iff each coordinate is in the block's range on its axis. -/
theorem mem_blk (t : Fin cfg0.N) (i : S16384x64.Idx) :
    i ∈ ((cfg0.win 5).blk t).view.set ↔ ∀ a : Fin 2, win0_5.index t a * S1024x64.size a ≤ (i a).val
      ∧ (i a).val < win0_5.index t a * S1024x64.size a + S1024x64.size a := by
  show i ∈ ((View.whole main_v0).slice (win0_5.rect t)).set ↔ _
  rw [View.set_slice_whole, Rect.mem_set_unit]
  exact Iff.rfl

/-- Every index of the result is written back by some point: row r by the point whose block row is r / 1024. -/
theorem cover (i : S16384x64.Idx) :
    ∃ t : Fin cfg0.N, (cfg0.win 5).flush t = true ∧ i ∈ ((cfg0.win 5).blk t).view.set := by
  have hi0 : (i 0).val < 16384 := (i 0).isLt
  have hi1 : (i 1).val < 64 := (i 1).isLt
  obtain ⟨t, ht⟩ := idx_onto ⟨(i 0).val / 1024, by omega⟩
  have q0 : win0_5.index t (0 : Fin 2) = (i 0).val / 1024 := congrFun ht 0
  have q1 : win0_5.index t (1 : Fin 2) = 0 := congrFun ht 1
  refine ⟨t, flush0_5 t, ?_⟩
  rw [mem_blk]
  intro a
  match a with
  | ⟨0, _⟩ =>
    show win0_5.index t (0 : Fin 2) * 1024 ≤ (i 0).val ∧ (i 0).val < win0_5.index t (0 : Fin 2) * 1024 + 1024
    omega
  | ⟨1, _⟩ =>
    show win0_5.index t (1 : Fin 2) * 64 ≤ (i 1).val ∧ (i 1).val < win0_5.index t (1 : Fin 2) * 64 + 64
    omega

/-- THE RESULT ARRAY after the run is `maskedRows` of the argument arrays. -/
theorem final (c : Dev nD) :
    (dats m 0 c).arrAt 5 cfg0.N = maskedRows (m ((c : Thread nD τ).loc main_arg0)) (m ((c : Thread nD τ).loc main_arg1)) :=
  (dats m 0 c).arrAt_eq_of_cover 5 (maskedRows (V m c main_arg0) (V m c main_arg1)) (fun t _ => flushed_eq m c t) cover

/-- The idealized kernel's run, read: the result at `maskedRows` of the arguments, the arguments unchanged. -/
theorem run : θ_run defs (onTc (τ := τ) (main (F := Ideal))) ⟨m, fun _ => 0, ρ⟩ fun r => ∀ c : Dev nD,
      r.2.mem ((c.tc : Thread nD τ).loc main_v0)
        = maskedRows (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(post_result m r h c).trans (final m c), kept_arg0 m r h c, kept_arg1 m r h c⟩)
    (run_main m ρ)

end Cert.KernelIdeal.Result

end
-- ==== Proof.RefValue.lean ====
/-
  The reference's result, as the same function of the argument arrays: its four operations — compare with a
  zero splat, read the bit as an unsigned integer, contract with the table — read at an index are the sum over
  k of the indicator of the nonzero word at (r, k) times the table's entry (k, c).
-/
import proofs.«180119_g78932908965942_cont_9to1_m_659_3_alg».proof.Proof.Gen.ReferenceIdeal.Read
import proofs.«180119_g78932908965942_cont_9to1_m_659_3_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.MaskedRows

/-- The reference's last stage is `maskedRows` of its two arguments. -/
theorem reference_eq (x0 : (⟨S16384x1000, .i32⟩ : BufTy).Contents (Elt Ideal)) (x1 : (⟨S1000x64, .f32⟩ : BufTy).Contents (Elt Ideal)) :
    val_main_v3 (F := Ideal) x0 x1 = maskedRows x0 x1 := by
  funext i
  rw [val_main_v3_apply]
  unfold maskedRows
  refine Finset.sum_congr rfl fun k _ => ?_
  have el : lidx_main_v3 i k = ix2 (i 0) k := funext fun a => Fin.ext (by match a with | ⟨0, _⟩ => rfl | ⟨1, _⟩ => rfl)
  have er : ridx_main_v3 i k = ix2 k (i 1) := funext fun a => Fin.ext (by match a with | ⟨0, _⟩ => rfl | ⟨1, _⟩ => rfl)
  have h0 : val_main_v0 (F := Ideal) (lidx_main_v3 i k) = 0#32 := (val_main_v0_apply _).trans (val_main_c_apply _)
  show FloatOps.uitofp (F := Ideal) .f32 (IntOp.cmpi .ne (x0 (lidx_main_v3 i k)) (val_main_v0 (F := Ideal) (lidx_main_v3 i k)))
      * x1 (ridx_main_v3 i k) = _
  rw [h0]
  unfold ind
  exact congrArg₂ (· * ·) (congrArg (fun j => FloatOps.uitofp (F := Ideal) .f32 (IntOp.cmpi .ne (x0 j) 0#32)) el) (congrArg x1 er)

end Cert.ReferenceIdeal.RefValue

end
-- ==== Proof.lean ====
/-
  The certificate of the masked embedding sum: result (r, c) = ∑ k < 1000, [idx (r, k) ≠ 0] · W (k, c) over
  idx : i32[16384, 1000] and W : f32[1000, 64].

  The kernel computes it in sixteen grid steps of 1024 rows, each step as four 256-row products of a 0/1 mask
  with the whole table on the matrix unit, the four index blocks reaching it through four windows on the one
  index array; the reference computes one whole product on the host. On the extended reals a matrix product
  into a zero accumulator and the host's contraction are the same finite sum, in the same order of k, and the
  kernel's signed reading of the widened comparison bit and the reference's unsigned reading of the bit are
  the same number 0 or 1. So the two results are one function of the arguments (`maskedRows`), and no law
  that needs finiteness is used: the precondition is never opened.

  The frames: each kernel program runs its sixteen points — the body loads its blocks, stores four quarters
  that cover the output block, and touches nothing else — with the index array's full share dealt in quarters
  among its four windows; the reference's frame is its run with the result dropped. The idealization rewrote
  nothing, so that claim is trivial.
-/
import proofs.«180119_g78932908965942_cont_9to1_m_659_3_alg».proof.Defs
import proofs.«180119_g78932908965942_cont_9to1_m_659_3_alg».proof.Proof.Gen.Kernel
import proofs.«180119_g78932908965942_cont_9to1_m_659_3_alg».proof.Proof.Gen.KernelIdeal
import proofs.«180119_g78932908965942_cont_9to1_m_659_3_alg».proof.Proof.Gen.ReferenceIdeal
import proofs.«180119_g78932908965942_cont_9to1_m_659_3_alg».proof.Proof.Gen.Pre_finite_inputs
import proofs.«180119_g78932908965942_cont_9to1_m_659_3_alg».proof.Proof.Gen.ReferenceIdeal.Run
import proofs.«180119_g78932908965942_cont_9to1_m_659_3_alg».proof.Proof.Gen.ReferenceIdeal.Read
import proofs.«180119_g78932908965942_cont_9to1_m_659_3_alg».proof.Proof.KernelRun
import proofs.«180119_g78932908965942_cont_9to1_m_659_3_alg».proof.Proof.KernelIdealValue
import proofs.«180119_g78932908965942_cont_9to1_m_659_3_alg».proof.Proof.RefValue

noncomputable section

namespace Cert.Proof

open Idealize.ShloMosaic Idealize.ShloMosaic.TcCoe Idealize.SL.Sem Cert.MaskedRows

theorem frame_k : Cert.frame_Kernel := fun m ρ _ => Cert.Kernel.Frame.frame m ρ

theorem frame_ki : Cert.frame_KernelIdeal := fun m ρ _ => Cert.KernelIdeal.Frame.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments the kernel's result array ends at `maskedRows` of them and the
    reference's at its last stage of them, which is the same function. -/
theorem algebraic : Cert.algebraic_KernelIdeal_ReferenceIdeal := by
  intro m ρ m' ρ' _ hagree
  refine ⟨fun c => maskedRows (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Result.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v3_eq, Cert.ReferenceIdeal.RefValue.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
